-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.ColScale.lean ====
/-
  The function both programs compute, stated once over literal shapes and at any float instance:
  every entry of a 16384 × 4096 matrix `x` is multiplied by the exponential of the entry of a length-4096
  vector `d` that sits in the same column,

      scaled x d (b, j) = x (b, j) · exp (d j).

  No sum, no cancellation and no constant occur, so nothing is asked of the entries: the identity between
  the two programs is an identity of terms at every extended real, infinities included.
  Also here: a length-4096 vector re-laid as a 1 × 4096 row reads, at `(0, j)`, the vector at `j`.
-/
import Idealize.ShloMosaic.PureOps.Ideal
import Idealize.ShloMosaic.Lib.ValueIdx
import Idealize.ShloMosaic.Lib.ValueLayout

noncomputable section

namespace Cert.ColScale

open Idealize.ShloMosaic Idealize.ShloMosaic.ValueIdx

variable {F : FTy → Type} [FloatOps F]

/-- The matrix's shape, the vector's, and the vector's as a one-row matrix. -/
abbrev Mat : Shape := ⟨2, ![16384, 4096]⟩
abbrev Diag : Shape := ⟨1, ![4096]⟩
abbrev Row : Shape := ⟨2, ![1, 4096]⟩

/-- `x` with column `j` multiplied by `exp (d j)`: entry `(b, j)` is `x (b, j) · exp (d j)`. -/
def scaled (x : Mat.Idx → Elt F .f32) (d : Diag.Idx → Elt F .f32) : Mat.Idx → Elt F .f32 :=
  fun i => FloatOps.mulf (x i) (FloatOps.exp (d (ix1 (i 1 : Fin 4096))))

theorem scaled_apply (x : Mat.Idx → Elt F .f32) (d : Diag.Idx → Elt F .f32) (i : Mat.Idx) :
    scaled x d i = FloatOps.mulf (x i) (FloatOps.exp (d (ix1 (i 1 : Fin 4096)))) := rfl

/-- The vector re-laid as one row of 4096 entries holds, in column `j` of that row, the vector's entry `j`:
    a row-major re-laying keeps the order of the entries, and the row's only row index is `0`. -/
theorem row_apply {α : Type} (d : Diag.Idx → α) (h : Diag.ShapeCasts Row) (z : Row.Idx) :
    shapeCast Row d h z = d (ix1 (z 1 : Fin 4096)) := by
  have hz : z = ix2 (z 0 : Fin 1) (z 1 : Fin 4096) := eq_ix2 z
  rw [hz]
  exact shapeCast_a_1a_apply d h (z 0 : Fin 1) (z 1 : Fin 4096)

end Cert.ColScale

end
-- ==== Proof.RefScale.lean ====
/-
  The reference, read at an index. It exponentiates the vector, repeats the result along a new leading axis of
  length 1 and then along 16384 rows, and multiplies the matrix by that entry by entry. Read at `(b, j)`, each
  repetition looks its operand up at the column `j` alone, so the product's entry is `x (b, j) · exp (d j)`:
  the reference's result is `ColScale.scaled x d`. On the extended reals the exponential the reference
  applies outside any kernel and the one a kernel applies are the same function, which is the only
  instance-specific fact used.
-/
import proofs.«157352_j54906861912422_2_alg».proof.Proof.Gen.ReferenceIdeal.Read
import proofs.«157352_j54906861912422_2_alg».proof.Proof.ColScale

noncomputable section

namespace Cert.ReferenceIdeal.Scaled

open Idealize.ShloMosaic Idealize.ShloMosaic.ValueIdx Cert.ReferenceIdeal Cert.ReferenceIdeal.Read

/-- Through both repetitions an index `(b, j)` of the matrix reads the exponentiated vector at `j`. -/
theorem col_idx (i : S16384x4096.Idx) : idx_main_v1 (idx_main_v2 i) = ix1 (i 1 : Fin 4096) :=
  funext fun a => Fin.ext (by match a with | ⟨0, _⟩ => rfl)

/-- The reference's result is `scaled` of its two arguments, entry by entry. -/
theorem result_eq (x : (⟨S16384x4096, .f32⟩ : BufTy).Contents (Elt Ideal)) (d : (⟨S4096, .f32⟩ : BufTy).Contents (Elt Ideal)) :
    val_main_v3 (F := Ideal) x d = Cert.ColScale.scaled (F := Ideal) x d := by
  funext i
  rw [val_main_v3_apply, val_main_v2_apply, val_main_v1_apply, val_main_v0_apply, col_idx, Cert.ColScale.scaled_apply]
  rfl

end Cert.ReferenceIdeal.Scaled

end
-- ==== Proof.KernelBlock.lean ====
/-
  What one grid point of the kernel writes back. The kernel walks the matrix in 32 blocks of 512 whole rows;
  at block `t` it loads rows `512·t … 512·t + 511` of `x` and the whole one-row array made from `d` before the
  launch, exponentiates the row, repeats it down the 512 rows and multiplies. So entry `(r, j)` of the block it
  stores is `x (512·t + r, j) · exp (d j)`, which is entry `(512·t + r, j)` of `ColScale.scaled x d`: the stored
  block is block `t` of that one matrix. All of this holds at any float instance.
-/
import proofs.«157352_j54906861912422_2_alg».proof.Proof.Gen.KernelIdeal.Value
import proofs.«157352_j54906861912422_2_alg».proof.Proof.ColScale

noncomputable section

namespace Cert.KernelIdeal.Scaled

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The body's stored block from the two loaded blocks, entry by entry: the matrix block's entry times the
    exponential of the row block's entry in the same column. -/
theorem stored_apply (x0 : Vec F S512x4096 .f32) (x1 : Vec F S1x4096 .f32) (y : S512x4096.Idx) :
    out0_2 x0 x1 y = FloatOps.mulf (x0 y) (FloatOps.exp (x1 (ix2 (0 : Fin 1) (y 1 : Fin 4096)))) := by
  unfold out0_2
  rw [Cert.KernelIdeal.Value.canon2_eq]
  show FloatOps.mulf (View.ld x0 r0_1 (Cert.KernelIdeal.Value.ix2_0 y))
      (FloatOps.exp (View.ld x1 r0_0 (Cert.KernelIdeal.Value.ix2_1 y))) = _
  rw [View.ld_unit_zero (S := S512x4096) origin, View.ld_unit_zero (S := S1x4096) origin]
  have e0 : Cert.KernelIdeal.Value.ix2_0 y = y :=
    funext fun a => Fin.ext (by match a with | ⟨0, _⟩ => rfl | ⟨1, _⟩ => rfl)
  have e1 : Cert.KernelIdeal.Value.ix2_1 y = ix2 (0 : Fin 1) (y 1 : Fin 4096) :=
    funext fun a => Fin.ext (by match a with | ⟨0, _⟩ => rfl | ⟨1, _⟩ => rfl)
  rw [e0, e1]
  rfl

/-- The one-row array the kernel's second window stages is the vector argument re-laid, as the launch finds it. -/
theorem row_array (c : Dev nD) :
    (V m c main_v0 : S1x4096.Idx → Elt F .f32)
      = shapeCast S1x4096 (m ((c : Thread nD τ).loc main_arg1)) Facts₀.shapeCasts_S4096_S1x4096 := by
  dsimp only [Gen.V, Gen.hostOps0]
  after_results
  rfl

/-- so at `(0, j)` (at any index whose column is `j`) it holds the vector's entry `j`. -/
theorem row_array_apply (c : Dev nD) (z : S1x4096.Idx) :
    V m c main_v0 z = m ((c : Thread nD τ).loc main_arg1) (ix1 (z 1 : Fin 4096)) := by
  rw [row_array]
  exact Cert.ColScale.row_apply _ _ z

/-- Where the three windows' blocks sit, decided over the 32 grid points: the matrix windows at block row `t`,
    block column `0`; the row window always at its only block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `scaled x d`, `x` the matrix as the launch finds it and `d` the
    vector argument. -/
theorem flushed_eq (c : Dev nD) (t : Fin cfg0.N) :
    (dats m 0 c).flushed 2 t
      = ((cfg0.win 2).blk t).view.read (Elt F)
          (Cert.ColScale.scaled (V m c main_arg0) (m ((c : Thread nD τ).loc main_arg1))) := by
  rw [Cert.KernelIdeal.Value.flushed2]
  obtain ⟨a0, a1, b0, b1, c0, c1⟩ := block_positions t
  funext j
  have hj0 : (j 0).val < 512 := (j 0).isLt
  have hj1 : (j 1).val < 4096 := (j 1).isLt
  show out0_2 (iblk m c 0 t) (iblk m c 1 t) j
      = Cert.ColScale.scaled (V m c main_arg0) (m ((c : Thread nD τ).loc main_arg1)) (((cfg0.win 2).blk t).view.emb j)
  refine (stored_apply (iblk m c 0 t) (iblk m c 1 t) j).trans ?_
  rw [Cert.ColScale.scaled_apply]
  -- the matrix block's entry is the matrix's entry under the output block's
  have hx : iblk m c 0 t j = V m c main_arg0 (((cfg0.win 2).blk t).view.emb j) := by
    show V m c main_arg0 (((cfg0.win 0).blk t).view.emb j) = V m c main_arg0 (((cfg0.win 2).blk t).view.emb j)
    refine congrArg (V m c main_arg0) ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  -- the row block's entry in column `j 1` is the vector's entry at the output entry's column
  have hd : iblk m c 1 t (ix2 (0 : Fin 1) (j 1 : Fin 4096))
      = m ((c : Thread nD τ).loc main_arg1) (ix1 ((((cfg0.win 2).blk t).view.emb j) 1 : Fin 4096)) := by
    show V m c main_v0 (((cfg0.win 1).blk t).view.emb (ix2 (0 : Fin 1) (j 1 : Fin 4096))) = _
    refine (row_array_apply m c _).trans ?_
    refine congrArg (m ((c : Thread nD τ).loc main_arg1)) ?_
    funext a; apply Fin.ext
    match a with
    | ⟨0, _⟩ => show win0_1.index t (1 : Fin 2) * 4096 + 1 * (j 1).val = win0_2.index t (1 : Fin 2) * 4096 + 1 * (j 1).val; omega
  rw [hx, hd]

end Cert.KernelIdeal.Scaled

end
-- ==== Proof.KernelArray.lean ====
/-
  From blocks to the whole array. Row `b` of the matrix lies in block `b / 512` and in no other, and
  `16384 = 32 · 512`, so the 32 blocks of 512 whole rows cover every entry; each block written back is the
  matching block of `ColScale.scaled x d`, so after the run the result array IS that matrix. Stated at any
  float instance, the arguments left as they were.
-/
import proofs.«157352_j54906861912422_2_alg».proof.Proof.KernelBlock

noncomputable section

namespace Cert.KernelIdeal.Scaled

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- An entry of the result array is in point `t`'s block iff, on each axis, its coordinate lies in the block's
    range: rows `512·t … 512·t + 511`, all 4096 columns. -/
theorem mem_block (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Every entry is in some point's block: the one numbered by its row divided by 512. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : (i 0).val / 512 < cfg0.N := lt_of_lt_of_eq (by omega : (i 0).val / 512 < 32) N_0.symm
  obtain ⟨t, ht⟩ : ∃ t : Fin cfg0.N, t.val = (i 0).val / 512 := ⟨⟨(i 0).val / 512, hN⟩, rfl⟩
  obtain ⟨-, -, -, -, c0, c1⟩ := block_positions t
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-- THE RESULT ARRAY after the run is `scaled` of the two argument arrays. -/
theorem final (c : Dev nD) :
    (dats m 0 c).arrAt 2 cfg0.N
      = Cert.ColScale.scaled (m ((c : Thread nD τ).loc main_arg0)) (m ((c : Thread nD τ).loc main_arg1)) := by
  have h := (dats m 0 c).arrAt_eq_of_cover 2
    (Cert.ColScale.scaled (V m c main_arg0) (m ((c : Thread nD τ).loc main_arg1)))
    (fun t _ => flushed_eq m c t) covered
  rw [V_main_arg0] at h
  exact h

/-- The kernel's run: every weakly fair execution ends with the result array at `scaled x d` and both arguments
    unchanged. -/
theorem run : θ_run defs (onTc (τ := τ) (main (F := F))) ⟨m, fun _ => 0, ρ⟩ fun r => ∀ c : Dev nD,
      r.2.mem ((c : Thread nD τ).loc main_v1)
        = Cert.ColScale.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Scaled

end
-- ==== Proof.lean ====
/-
  A matrix scaled column by column by the exponential of a vector, computed two ways.

  Both programs take a 16384 × 4096 matrix `x` and a length-4096 vector `d` and return the matrix with entry
  `(b, j)` equal to `x (b, j) · exp (d j)`, together with `d` itself. The kernel first re-lays `d` as one row, then
  visits the matrix in 32 blocks of 512 whole rows, at each block multiplying by the exponentiated row repeated
  down the block. The reference exponentiates `d`, repeats it over all 16384 rows and multiplies once.

  On the extended reals the two results are the same matrix, `ColScale.scaled x d`:
    * each block the kernel writes back is the matching block of that matrix, and the blocks cover it
      (a row `b` lies in block `b / 512`), so the kernel's result array is that matrix;
    * read at `(b, j)`, the reference's two repetitions look the exponentiated vector up at `j`, so its result
      is that matrix too;
    * the exponential applied inside a kernel and the one applied outside are one function there.
  The two factors stand in the same order on both sides and nothing is summed or cancelled, so the equality
  holds at every extended real and the finiteness of the inputs is never used. The second result is the
  argument `d`, which neither program changes.

  The kernel read over the extended reals is the word-level kernel's own operations, none replaced by another,
  so nothing has to be shown to relate the two readings. The three programs' termination and the
  preservation of their arguments come from the runs themselves.
-/
import proofs.«157352_j54906861912422_2_alg».proof.Defs
import proofs.«157352_j54906861912422_2_alg».proof.Proof.Gen.Kernel
import proofs.«157352_j54906861912422_2_alg».proof.Proof.Gen.Kernel.Frame
import proofs.«157352_j54906861912422_2_alg».proof.Proof.Gen.KernelIdeal
import proofs.«157352_j54906861912422_2_alg».proof.Proof.Gen.KernelIdeal.Frame
import proofs.«157352_j54906861912422_2_alg».proof.Proof.Gen.KernelIdeal.Value
import proofs.«157352_j54906861912422_2_alg».proof.Proof.Gen.ReferenceIdeal
import proofs.«157352_j54906861912422_2_alg».proof.Proof.Gen.ReferenceIdeal.Run
import proofs.«157352_j54906861912422_2_alg».proof.Proof.Gen.ReferenceIdeal.Read
import proofs.«157352_j54906861912422_2_alg».proof.Proof.Gen.Pre_finite_inputs
import proofs.«157352_j54906861912422_2_alg».proof.Proof.ColScale
import proofs.«157352_j54906861912422_2_alg».proof.Proof.RefScale
import proofs.«157352_j54906861912422_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The two readings of the kernel have the same operations: there is nothing to relate. -/
theorem preserves : Cert.preserves_Kernel_KernelIdeal := trivial

/-- From memories that agree on `x` and `d` both programs end with the matrix `scaled x d` and with `d`. -/
theorem algebraic : Cert.algebraic_KernelIdeal_ReferenceIdeal := by
  intro m ρ m' ρ' _ hagree
  refine ⟨fun c => Cert.ColScale.scaled (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)),
          fun c => m ((c.tc : Thread Cert.KernelIdeal.nD Cert.KernelIdeal.τ).loc Cert.KernelIdeal.main_arg1), ?_, ?_⟩
  · exact (θ_run Cert.KernelIdeal.defs _ _).mono
      (fun _ h c => ⟨(h c).1, (h c).2.2, (h c).2.1, (h c).2.2⟩)
      (Cert.KernelIdeal.Scaled.run (F := Ideal) m ρ)
  · refine (θ_run Cert.ReferenceIdeal.defs _ _).mono (fun _ h c => ⟨(h c).1.trans ?_, (h c).2.1.trans (hagree c).2, (h c).2.2⟩)
      (Cert.ReferenceIdeal.Value.run (F := Ideal) m' ρ')
    rw [Cert.ReferenceIdeal.Read.val_main_v3_eq, Cert.ReferenceIdeal.Scaled.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
